-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x64, .f32⟩
  | .hbm, ⟨78, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/- The first program's run with its result NAMED. The launch theorem for a program of several kernel regions among
   stretches of host operations gives, for every final state, every unscoped buffer at the last boundary's contents
   (the fold `W6` of the generated frame module: host operations applied in order, each region's arrays replaced by
   what its write-backs leave). The generated frame reads only the argument arrays off that fold; here the same launch
   is read at the result buffer as well. -/
import proofs.«120423_j59734405152779_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the argument arrays end as launched. -/
theorem run_value : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.SageSpec.lean ====
/- The mathematics both programs compute, stated once over coordinates.

   A three-layer mean-aggregating graph convolution on 50000 nodes. One layer takes node features `h` (50000 × 128),
   aggregates them over the graph's edges (`A h`: the sum, at every node, of the features of its in-neighbours — here an
   arbitrary function of `h`, since both programs compute it by the same operations), divides by the clamped in-degree
   `c r ≥ 1`, and returns `mean · Wl + h · Wr + b`. The two programs differ in two places only: one multiplies by the
   reciprocal `1 / c r` where the other divides by `c r`, and they add the bias at different places of the three-term
   sum. Both differences vanish on the extended reals as soon as `c r ≠ 0`: addition is commutative and associative
   there, and `a · (1 / c) = a / c` for every extended real `a` when `c ≠ 0` (no finiteness is needed). -/
import Idealize.ShloMosaic.PureOps.Ideal
import Idealize.ShloMosaic.Lib.ValueIdx
import proofs.«120423_j59734405152779_1_alg».proof.Proof.LibERealAlgebra

noncomputable section

namespace Cert.Sage

open Idealize.ShloMosaic Idealize.ShloMosaic.ValueIdx
open scoped BigOperators

/-- An array of extended reals of a rank-2 shape. -/
abbrev Arr2 (a b : Nat) := (⟨2, ![a, b]⟩ : Shape).Idx → EReal
/-- An array of extended reals of a rank-1 shape. -/
abbrev Arr1 (a : Nat) := (⟨1, ![a]⟩ : Shape).Idx → EReal

/-- The array whose entry at row `r`, column `q` is `f r q`. -/
def toArr {a b : Nat} (f : Fin a → Fin b → EReal) : Arr2 a b := fun i => f (i 0) (i 1)

theorem toArr_ix2 {a b : Nat} (f : Fin a → Fin b → EReal) (r : Fin a) (q : Fin b) : toArr f (ix2 r q) = f r q := rfl

/-- An array is determined by its entries at every row and column. -/
theorem eq_toArr {a b : Nat} (x : Arr2 a b) (f : Fin a → Fin b → EReal) (h : ∀ r q, x (ix2 r q) = f r q) : x = toArr f :=
  funext fun i => (congrArg x (eq_ix2 i)).trans (h (i 0) (i 1))

/-- The float word of `1.0`. -/
abbrev one : EReal := Ideal.ofBits .f32 0x3F800000#32
/-- The float word of `0.0`. -/
abbrev zero : EReal := Ideal.ofBits .f32 0x00000000#32

/-- Multiplying by the reciprocal of a nonzero extended real is dividing by it — at the infinities too. -/
theorem mul_recip (a c : EReal) (hc : c ≠ 0) : a * Ideal.div one c = Ideal.div a c := by
  unfold one
  rw [Cert.LibEReal.ofBits_one, Ideal.div, Ideal.div, if_neg hc, if_neg hc, one_mul]

/-- A clamped count `max x 1` is never zero. -/
theorem max_one_ne_zero (x : EReal) : max x one ≠ 0 := by
  unfold one
  rw [Cert.LibEReal.ofBits_one]
  exact ne_of_gt (lt_of_lt_of_le zero_lt_one (le_max_right x 1))

/-- The dense part of a layer from a GIVEN mean array: `mean · Wl + h · Wr + b`, the two products summed first (the
    bias as a one-row array). -/
def lin {D : Nat} (mean h : Arr2 50000 128) (Wl Wr : Arr2 128 D) (b : Arr2 1 D) : Fin 50000 → Fin D → EReal := fun r q =>
  ((∑ k : Fin 128, mean (ix2 r k) * Wl (ix2 k q)) + ∑ k : Fin 128, h (ix2 r k) * Wr (ix2 k q)) + b (ix2 0 q)

section Layer
variable (A : Arr2 50000 128 → Arr2 50000 128) (c : Fin 50000 → EReal) {D : Nat}

/-- One layer as the first program computes it: the aggregate times the reciprocal of the clamped count, the two
    products summed first, the bias added last. -/
def layerMul (h : Arr2 50000 128) (Wl Wr : Arr2 128 D) (b : Fin D → EReal) : Fin 50000 → Fin D → EReal := fun r q =>
  ((∑ k : Fin 128, (A h (ix2 r k) * Ideal.div one (c r)) * Wl (ix2 k q)) + ∑ k : Fin 128, h (ix2 r k) * Wr (ix2 k q)) + b q

/-- One layer as the second program computes it: the aggregate divided by the clamped count, the bias added to the
    first product, the second product added last. -/
def layerDiv (h : Arr2 50000 128) (Wl Wr : Arr2 128 D) (b : Fin D → EReal) : Fin 50000 → Fin D → EReal := fun r q =>
  ((∑ k : Fin 128, Ideal.div (A h (ix2 r k)) (c r) * Wl (ix2 k q)) + b q) + ∑ k : Fin 128, h (ix2 r k) * Wr (ix2 k q)

/-- The two forms of a layer agree wherever no clamped count is zero. -/
theorem layerMul_eq_layerDiv (hc : ∀ r, c r ≠ 0) (h : Arr2 50000 128) (Wl Wr : Arr2 128 D) (b : Fin D → EReal) :
    layerMul A c h Wl Wr b = layerDiv A c h Wl Wr b := by
  funext r q
  unfold layerMul layerDiv
  rw [add_right_comm]
  congr 2
  exact Finset.sum_congr rfl fun k _ => by rw [mul_recip _ _ (hc r)]

/-- The dense part applied to the mean array "aggregate times reciprocal count" is the layer in its first form. -/
theorem lin_eq_layerMul (mean h : Arr2 50000 128) (Wl Wr : Arr2 128 D) (b : Arr2 1 D) (bb : Fin D → EReal)
    (hmean : ∀ r k, mean (ix2 r k) = A h (ix2 r k) * Ideal.div one (c r)) (hb : ∀ q, b (ix2 0 q) = bb q) :
    lin mean h Wl Wr b = layerMul A c h Wl Wr bb := by
  funext r q
  unfold lin layerMul
  rw [hb q]
  congr 2
  exact Finset.sum_congr rfl fun k _ => by rw [hmean r k]

/-- The rectifier, entry by entry. -/
def relu {a b : Nat} (f : Fin a → Fin b → EReal) : Fin a → Fin b → EReal := fun r q => max (f r q) zero

/-- The three layers composed, in the first program's form. -/
def netMul (x : Arr2 50000 128) (Wl0 Wr0 : Arr2 128 128) (b0 : Fin 128 → EReal) (Wl1 Wr1 : Arr2 128 128) (b1 : Fin 128 → EReal)
    (Wl2 Wr2 : Arr2 128 64) (b2 : Fin 64 → EReal) : Fin 50000 → Fin 64 → EReal :=
  layerMul A c (toArr (relu (layerMul A c (toArr (relu (layerMul A c x Wl0 Wr0 b0))) Wl1 Wr1 b1))) Wl2 Wr2 b2

/-- The three layers composed, in the second program's form. -/
def netDiv (x : Arr2 50000 128) (Wl0 Wr0 : Arr2 128 128) (b0 : Fin 128 → EReal) (Wl1 Wr1 : Arr2 128 128) (b1 : Fin 128 → EReal)
    (Wl2 Wr2 : Arr2 128 64) (b2 : Fin 64 → EReal) : Fin 50000 → Fin 64 → EReal :=
  layerDiv A c (toArr (relu (layerDiv A c (toArr (relu (layerDiv A c x Wl0 Wr0 b0))) Wl1 Wr1 b1))) Wl2 Wr2 b2

theorem netMul_eq_netDiv (hc : ∀ r, c r ≠ 0) (x : Arr2 50000 128) (Wl0 Wr0 : Arr2 128 128) (b0 : Fin 128 → EReal)
    (Wl1 Wr1 : Arr2 128 128) (b1 : Fin 128 → EReal) (Wl2 Wr2 : Arr2 128 64) (b2 : Fin 64 → EReal) :
    netMul A c x Wl0 Wr0 b0 Wl1 Wr1 b1 Wl2 Wr2 b2 = netDiv A c x Wl0 Wr0 b0 Wl1 Wr1 b1 Wl2 Wr2 b2 := by
  unfold netMul netDiv
  simp only [layerMul_eq_layerDiv A c hc]

end Layer

end Cert.Sage

end
-- ==== Proof.KHost.lean ====
/- The host operations of the first program, read as functions of the buffers they start from. Every stretch of host
   operations before a kernel launch builds the same mean array from the node features `h` it is given and the edge
   list `e` (a 2 × 800000 integer array: row 0 the source node of every edge, row 1 its destination): the source
   indices are normalised (a negative index counts from the end), the source rows are gathered, scatter-added at
   their destinations into a zero array (`agg`), and multiplied by the reciprocal of the clamped in-degree
   `max(cnt, 1)`, where `cnt` scatter-adds a one per edge at its destination. The gather and the scatter-add are never
   opened: the second program applies the very same operations. The buffers a stretch does not write keep what the
   previous boundary left, and a kernel region changes only its own output array. -/
import proofs.«120423_j59734405152779_1_alg».proof.Proof.Gen.KernelIdeal.Frame
import proofs.«120423_j59734405152779_1_alg».proof.Proof.SageSpec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx

/-- The edge list's type. -/
abbrev E := (⟨S2x800000, .i32⟩ : BufTy).Contents (Elt Ideal)
/-- The node features' type. -/
abbrev H := (⟨S50000x128, .f32⟩ : BufTy).Contents (Elt Ideal)
/-- A value per node. -/
abbrev C := (⟨S50000, .f32⟩ : BufTy).Contents (Elt Ideal)

/-- The edges' source nodes. -/
def src1 (e : E) : (⟨S800000, .i32⟩ : BufTy).Contents (Elt Ideal) :=
  shapeCast S800000 (extractStridedSlice S1x800000 ![0, 0] e slices_S2x800000_S1x800000_0_0) shapeCasts_S1x800000_S800000
/-- The edges' destination nodes. -/
def dst1 (e : E) : (⟨S800000, .i32⟩ : BufTy).Contents (Elt Ideal) :=
  shapeCast S800000 (extractStridedSlice S1x800000 ![1, 0] e slices_S2x800000_S1x800000_1_0) shapeCasts_S1x800000_S800000
/-- The source nodes as gather indices: a negative index has 50000 added. -/
def srcIdx (e : E) : (⟨S800000x1, .i32⟩ : BufTy).Contents (Elt Ideal) :=
  broadcastInDim S800000x1 ![0] bcast_S800000_S800000x1_0
    (select (cmpi .slt (src1 e) (broadcastInDim S800000 ![] bcast_S_S800000 (constantI S_ 32 0#32)))
      (addi (src1 e) (broadcastInDim S800000 ![] bcast_S_S800000 (constantI S_ 32 50000#32))) (src1 e))
/-- The destination nodes as scatter indices. -/
def dstIdx (e : E) : (⟨S800000x1, .i32⟩ : BufTy).Contents (Elt Ideal) :=
  broadcastInDim S800000x1 ![0] bcast_S800000_S800000x1_0 (dst1 e)
/-- The aggregate: at every node, the sum of the features of the sources of its incoming edges. -/
def agg (e : E) (h : H) : H :=
  Host.scatterAdd scatter_S50000x128_S800000x1_S800000x128_1_0_0_1
    (broadcastInDim S50000x128 ![] bcast_S_S50000x128 (constant (F := Ideal) S_ .f32 0x00000000#32)) (dstIdx e)
    (Host.gather gather_S50000x128_S800000x1_S800000x128_1_0_n_n_0_1_1128 h (srcIdx e))
/-- The in-degree of every node. -/
def cnt (e : E) : C :=
  Host.scatterAdd scatter_S50000_S800000x1_S800000_n_0_0_1
    (broadcastInDim S50000 ![] bcast_S_S50000 (constant (F := Ideal) S_ .f32 0x00000000#32)) (dstIdx e)
    (broadcastInDim S800000 ![] bcast_S_S800000 (constant (F := Ideal) S_ .f32 0x3F800000#32))
/-- The constant-one value per node. -/
def ones : C := broadcastInDim S50000 ![] bcast_S_S50000 (constant (F := Ideal) S_ .f32 0x3F800000#32)
/-- A count clamped below at one. -/
def clamp (n : C) : C := maximumf (F := Ideal) (φ := .f32) (s := S50000) n ones
/-- The in-degree clamped below at one. -/
def cmax (e : E) : C := clamp (cnt e)

theorem ones_apply (i : S50000.Idx) : ones i = Cert.Sage.one := rfl
/-- A clamped count is never zero. -/
theorem clamp_ne_zero (n : C) (i : S50000.Idx) : clamp n i ≠ 0 := by
  unfold clamp
  rw [maximumf_apply, ones_apply]
  exact Cert.Sage.max_one_ne_zero _

/-- A per-node value spread along the 128 feature columns. -/
def colB (cm : C) : H :=
  broadcastInDim S50000x128 ![0, 1] bcast_S50000x1_S50000x128_0_1 (broadcastInDim S50000x1 ![0] bcast_S50000_S50000x1_0 cm)

/-- A per-node value spread along the columns reads, at row `r`, the node's value. -/
theorem colB_apply (cm : C) (r : Fin 50000) (k : Fin 128) :
    colB cm (ix2 r k) = cm (ix1 r) := by
  unfold colB
  rw [broadcastInDim_apply _ bcast_S50000x1_S50000x128_0_1 _ (ix2 r k) (ix2 r 0) (fun a => match a with
    | ⟨0, _⟩ => by show r.val = if (50000 : Nat) = 1 then 0 else r.val; rw [if_neg (by decide)]
    | ⟨1, _⟩ => by show (0 : Nat) = if (1 : Nat) = 1 then 0 else k.val; rw [if_pos rfl])]
  exact broadcastInDim_apply _ bcast_S50000_S50000x1_0 cm (ix2 r 0) (ix1 r) (fun a => match a with
    | ⟨0, _⟩ => by show r.val = if (50000 : Nat) = 1 then 0 else r.val; rw [if_neg (by decide)])

/-- The host's quotient of two arrays, entry by entry. -/
theorem hostDivf_apply {s : Shape} {φ : FTy} (a b : FVec Ideal s φ) (i : s.Idx) : Host.divf a b i = Ideal.div (a i) (b i) := rfl

/-- The mean array from ANY aggregated array `a` and clamped counts `cm`: row `r` of `a` times `1 / cm r`. -/
def meanOf (a : H) (cm : C) : H :=
  mulf (F := Ideal) (φ := .f32) (s := S50000x128) a (colB (Host.divf (F := Ideal) (φ := .f32) (s := S50000) ones cm))

theorem meanOf_apply (a : H) (cm : C) (r : Fin 50000) (k : Fin 128) :
    meanOf a cm (ix2 r k) = a (ix2 r k) * Ideal.div Cert.Sage.one (cm (ix1 r)) := by
  unfold meanOf
  rw [mulf_apply, colB_apply, hostDivf_apply, ones_apply]

/-- The mean array the host operations build from the features `h`. -/
def mean (e : E) (h : H) : H := meanOf (agg e h) (cmax e)

/-- A bias vector as the one-row array the kernel reads. -/
def biasRow128 (b : (⟨S128, .f32⟩ : BufTy).Contents (Elt Ideal)) : (⟨S1x128, .f32⟩ : BufTy).Contents (Elt Ideal) :=
  shapeCast S1x128 b shapeCasts_S128_S1x128
/-- The same for the last layer's 64 columns. -/
def biasRow64 (b : (⟨S64, .f32⟩ : BufTy).Contents (Elt Ideal)) : (⟨S1x64, .f32⟩ : BufTy).Contents (Elt Ideal) :=
  shapeCast S1x64 b shapeCasts_S64_S1x64

theorem biasRow128_apply (b : (⟨S128, .f32⟩ : BufTy).Contents (Elt Ideal)) (q : Fin 128) : biasRow128 b (ix2 0 q) = b (ix1 q) := by
  unfold biasRow128
  exact shapeCast_apply b shapeCasts_S128_S1x128 (ix2 0 q) (ix1 q) (by simp [Shape.rowMajor_val_two, Shape.rowMajor_val_one])
theorem biasRow64_apply (b : (⟨S64, .f32⟩ : BufTy).Contents (Elt Ideal)) (q : Fin 64) : biasRow64 b (ix2 0 q) = b (ix1 q) := by
  unfold biasRow64
  exact shapeCast_apply b shapeCasts_S64_S1x64 (ix2 0 q) (ix1 q) (by simp [Shape.rowMajor_val_two, Shape.rowMajor_val_one])

variable (m : (ℓ : Loc nD τ sig) → Buf (Elt Ideal) ℓ) (ρ : Dev nD → PrngReg)

/-- The reciprocal of the clamped in-degree as the column the host operations keep it in. -/
def inv (e : E) : (⟨S50000x1, .f32⟩ : BufTy).Contents (Elt Ideal) :=
  broadcastInDim S50000x1 ![0] bcast_S50000_S50000x1_0 (Host.divf (F := Ideal) (φ := .f32) (s := S50000) ones (cmax e))

/-! ## The first stretch, from the launch memory -/

theorem W1_v1 (c : Dev nD) : (W1 m ρ c (Proc.devRef .tc main_v1) : (⟨S800000, .i32⟩ : BufTy).Contents (Elt Ideal)) = src1 (m ((c : Thread nD τ).loc main_arg1)) := by
  show StableHlo.after hostOps0 (W0 m ρ c) (Proc.devRef .tc main_v1) = _
  after_results
  rfl
theorem W1_v3 (c : Dev nD) : (W1 m ρ c (Proc.devRef .tc main_v3) : (⟨S800000, .i32⟩ : BufTy).Contents (Elt Ideal)) = dst1 (m ((c : Thread nD τ).loc main_arg1)) := by
  show StableHlo.after hostOps0 (W0 m ρ c) (Proc.devRef .tc main_v3) = _
  after_results
  rfl
theorem W1_v12 (c : Dev nD) : (W1 m ρ c (Proc.devRef .tc main_v12) : (⟨S50000x1, .f32⟩ : BufTy).Contents (Elt Ideal)) = inv (m ((c : Thread nD τ).loc main_arg1)) := by
  show StableHlo.after hostOps0 (W0 m ρ c) (Proc.devRef .tc main_v12) = _
  after_results
  rfl
set_option maxHeartbeats 4000000 in
theorem W1_v24 (c : Dev nD) : (W1 m ρ c (Proc.devRef .tc main_v24) : H) = mean (m ((c : Thread nD τ).loc main_arg1)) (m ((c : Thread nD τ).loc main_arg0)) := by
  show StableHlo.after hostOps0 (W0 m ρ c) (Proc.devRef .tc main_v24) = _
  after_results_simp
  rfl
set_option maxHeartbeats 4000000 in
theorem W1_v25 (c : Dev nD) : (W1 m ρ c (Proc.devRef .tc main_v25) : (⟨S1x128, .f32⟩ : BufTy).Contents (Elt Ideal)) = biasRow128 (m ((c : Thread nD τ).loc main_arg4)) := by
  show StableHlo.after hostOps0 (W0 m ρ c) (Proc.devRef .tc main_v25) = _
  after_results_simp
  rfl
set_option maxHeartbeats 4000000 in
theorem W1_main_arg0 (c : Dev nD) : W1 m ρ c (Proc.devRef .tc main_arg0) = m ((c : Thread nD τ).loc main_arg0) := by
  show StableHlo.after hostOps0 (W0 m ρ c) (Proc.devRef .tc main_arg0) = _
  after_results_simp
set_option maxHeartbeats 4000000 in
theorem W1_main_arg2 (c : Dev nD) : W1 m ρ c (Proc.devRef .tc main_arg2) = m ((c : Thread nD τ).loc main_arg2) := by
  show StableHlo.after hostOps0 (W0 m ρ c) (Proc.devRef .tc main_arg2) = _
  after_results_simp
set_option maxHeartbeats 4000000 in
theorem W1_main_arg3 (c : Dev nD) : W1 m ρ c (Proc.devRef .tc main_arg3) = m ((c : Thread nD τ).loc main_arg3) := by
  show StableHlo.after hostOps0 (W0 m ρ c) (Proc.devRef .tc main_arg3) = _
  after_results_simp
set_option maxHeartbeats 4000000 in
theorem W1_main_arg5 (c : Dev nD) : W1 m ρ c (Proc.devRef .tc main_arg5) = m ((c : Thread nD τ).loc main_arg5) := by
  show StableHlo.after hostOps0 (W0 m ρ c) (Proc.devRef .tc main_arg5) = _
  after_results_simp
set_option maxHeartbeats 4000000 in
theorem W1_main_arg6 (c : Dev nD) : W1 m ρ c (Proc.devRef .tc main_arg6) = m ((c : Thread nD τ).loc main_arg6) := by
  show StableHlo.after hostOps0 (W0 m ρ c) (Proc.devRef .tc main_arg6) = _
  after_results_simp
set_option maxHeartbeats 4000000 in
theorem W1_main_arg7 (c : Dev nD) : W1 m ρ c (Proc.devRef .tc main_arg7) = m ((c : Thread nD τ).loc main_arg7) := by
  show StableHlo.after hostOps0 (W0 m ρ c) (Proc.devRef .tc main_arg7) = _
  after_results_simp
set_option maxHeartbeats 4000000 in
theorem W1_main_arg8 (c : Dev nD) : W1 m ρ c (Proc.devRef .tc main_arg8) = m ((c : Thread nD τ).loc main_arg8) := by
  show StableHlo.after hostOps0 (W0 m ρ c) (Proc.devRef .tc main_arg8) = _
  after_results_simp
set_option maxHeartbeats 4000000 in
theorem W1_main_arg9 (c : Dev nD) : W1 m ρ c (Proc.devRef .tc main_arg9) = m ((c : Thread nD τ).loc main_arg9) := by
  show StableHlo.after hostOps0 (W0 m ρ c) (Proc.devRef .tc main_arg9) = _
  after_results_simp
set_option maxHeartbeats 4000000 in
theorem W1_main_arg10 (c : Dev nD) : W1 m ρ c (Proc.devRef .tc main_arg10) = m ((c : Thread nD τ).loc main_arg10) := by
  show StableHlo.after hostOps0 (W0 m ρ c) (Proc.devRef .tc main_arg10) = _
  after_results_simp

/-! ## Across the first region: only its output array changes -/

theorem W2_v1 (c : Dev nD) : (W2 m ρ c (Proc.devRef .tc main_v1) : (⟨S800000, .i32⟩ : BufTy).Contents (Elt Ideal)) = src1 (m ((c : Thread nD τ).loc main_arg1)) :=
  (W2_of_ne m ρ c main_v1 (by decide)).trans (W1_v1 m ρ c)
theorem W2_v3 (c : Dev nD) : (W2 m ρ c (Proc.devRef .tc main_v3) : (⟨S800000, .i32⟩ : BufTy).Contents (Elt Ideal)) = dst1 (m ((c : Thread nD τ).loc main_arg1)) :=
  (W2_of_ne m ρ c main_v3 (by decide)).trans (W1_v3 m ρ c)
theorem W2_v12 (c : Dev nD) : (W2 m ρ c (Proc.devRef .tc main_v12) : (⟨S50000x1, .f32⟩ : BufTy).Contents (Elt Ideal)) = inv (m ((c : Thread nD τ).loc main_arg1)) :=
  (W2_of_ne m ρ c main_v12 (by decide)).trans (W1_v12 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W2_main_arg10 (c : Dev nD) : W2 m ρ c (Proc.devRef .tc main_arg10) = m ((c : Thread nD τ).loc main_arg10) :=
  (W2_of_ne m ρ c main_arg10 (by decide)).trans (W1_main_arg10 m ρ c)

/-! ## The second stretch, from the first region's exit -/

theorem W3_v1 (c : Dev nD) : (W3 m ρ c (Proc.devRef .tc main_v1) : (⟨S800000, .i32⟩ : BufTy).Contents (Elt Ideal)) = src1 (m ((c : Thread nD τ).loc main_arg1)) := by
  show StableHlo.after hostOps1 (W2 m ρ c) (Proc.devRef .tc main_v1) = _
  after_results
  exact W2_v1 m ρ c
theorem W3_v3 (c : Dev nD) : (W3 m ρ c (Proc.devRef .tc main_v3) : (⟨S800000, .i32⟩ : BufTy).Contents (Elt Ideal)) = dst1 (m ((c : Thread nD τ).loc main_arg1)) := by
  show StableHlo.after hostOps1 (W2 m ρ c) (Proc.devRef .tc main_v3) = _
  after_results
  exact W2_v3 m ρ c
theorem W3_v12 (c : Dev nD) : (W3 m ρ c (Proc.devRef .tc main_v12) : (⟨S50000x1, .f32⟩ : BufTy).Contents (Elt Ideal)) = inv (m ((c : Thread nD τ).loc main_arg1)) := by
  show StableHlo.after hostOps1 (W2 m ρ c) (Proc.devRef .tc main_v12) = _
  after_results
  exact W2_v12 m ρ c
theorem W3_v26 (c : Dev nD) : W3 m ρ c (Proc.devRef .tc main_v26) = W2 m ρ c (Proc.devRef .tc main_v26) := by
  show StableHlo.after hostOps1 (W2 m ρ c) (Proc.devRef .tc main_v26) = _
  after_results
theorem W3_v38 (c : Dev nD) : (W3 m ρ c (Proc.devRef .tc main_v38) : H) = mean (m ((c : Thread nD τ).loc main_arg1)) (W2 m ρ c (Proc.devRef .tc main_v26)) := by
  show StableHlo.after hostOps1 (W2 m ρ c) (Proc.devRef .tc main_v38) = _
  after_results
  rw [W2_v1, W2_v3, W2_v12]
  rfl
theorem W3_v39 (c : Dev nD) : (W3 m ρ c (Proc.devRef .tc main_v39) : (⟨S1x128, .f32⟩ : BufTy).Contents (Elt Ideal)) = biasRow128 (m ((c : Thread nD τ).loc main_arg7)) := by
  show StableHlo.after hostOps1 (W2 m ρ c) (Proc.devRef .tc main_v39) = _
  after_results
  rw [W2_main_arg7]
  rfl
theorem W3_main_arg5 (c : Dev nD) : W3 m ρ c (Proc.devRef .tc main_arg5) = m ((c : Thread nD τ).loc main_arg5) := by
  show StableHlo.after hostOps1 (W2 m ρ c) (Proc.devRef .tc main_arg5) = _
  after_results
  exact W2_main_arg5 m ρ c
theorem W3_main_arg6 (c : Dev nD) : W3 m ρ c (Proc.devRef .tc main_arg6) = m ((c : Thread nD τ).loc main_arg6) := by
  show StableHlo.after hostOps1 (W2 m ρ c) (Proc.devRef .tc main_arg6) = _
  after_results
  exact W2_main_arg6 m ρ c
theorem W3_main_arg8 (c : Dev nD) : W3 m ρ c (Proc.devRef .tc main_arg8) = m ((c : Thread nD τ).loc main_arg8) := by
  show StableHlo.after hostOps1 (W2 m ρ c) (Proc.devRef .tc main_arg8) = _
  after_results
  exact W2_main_arg8 m ρ c
theorem W3_main_arg9 (c : Dev nD) : W3 m ρ c (Proc.devRef .tc main_arg9) = m ((c : Thread nD τ).loc main_arg9) := by
  show StableHlo.after hostOps1 (W2 m ρ c) (Proc.devRef .tc main_arg9) = _
  after_results
  exact W2_main_arg9 m ρ c
theorem W3_main_arg10 (c : Dev nD) : W3 m ρ c (Proc.devRef .tc main_arg10) = m ((c : Thread nD τ).loc main_arg10) := by
  show StableHlo.after hostOps1 (W2 m ρ c) (Proc.devRef .tc main_arg10) = _
  after_results
  exact W2_main_arg10 m ρ c

/-! ## Across the second region -/

theorem W4_v1 (c : Dev nD) : (W4 m ρ c (Proc.devRef .tc main_v1) : (⟨S800000, .i32⟩ : BufTy).Contents (Elt Ideal)) = src1 (m ((c : Thread nD τ).loc main_arg1)) :=
  (W4_of_ne m ρ c main_v1 (by decide)).trans (W3_v1 m ρ c)
theorem W4_v3 (c : Dev nD) : (W4 m ρ c (Proc.devRef .tc main_v3) : (⟨S800000, .i32⟩ : BufTy).Contents (Elt Ideal)) = dst1 (m ((c : Thread nD τ).loc main_arg1)) :=
  (W4_of_ne m ρ c main_v3 (by decide)).trans (W3_v3 m ρ c)
theorem W4_v12 (c : Dev nD) : (W4 m ρ c (Proc.devRef .tc main_v12) : (⟨S50000x1, .f32⟩ : BufTy).Contents (Elt Ideal)) = inv (m ((c : Thread nD τ).loc main_arg1)) :=
  (W4_of_ne m ρ c main_v12 (by decide)).trans (W3_v12 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W4_main_arg10 (c : Dev nD) : W4 m ρ c (Proc.devRef .tc main_arg10) = m ((c : Thread nD τ).loc main_arg10) :=
  (W4_of_ne m ρ c main_arg10 (by decide)).trans (W3_main_arg10 m ρ c)

/-! ## The third stretch, from the second region's exit -/

theorem W5_v40 (c : Dev nD) : W5 m ρ c (Proc.devRef .tc main_v40) = W4 m ρ c (Proc.devRef .tc main_v40) := by
  show StableHlo.after hostOps2 (W4 m ρ c) (Proc.devRef .tc main_v40) = _
  after_results
theorem W5_v52 (c : Dev nD) : (W5 m ρ c (Proc.devRef .tc main_v52) : H) = mean (m ((c : Thread nD τ).loc main_arg1)) (W4 m ρ c (Proc.devRef .tc main_v40)) := by
  show StableHlo.after hostOps2 (W4 m ρ c) (Proc.devRef .tc main_v52) = _
  after_results
  rw [W4_v1, W4_v3, W4_v12]
  rfl
theorem W5_v53 (c : Dev nD) : (W5 m ρ c (Proc.devRef .tc main_v53) : (⟨S1x64, .f32⟩ : BufTy).Contents (Elt Ideal)) = biasRow64 (m ((c : Thread nD τ).loc main_arg10)) := by
  show StableHlo.after hostOps2 (W4 m ρ c) (Proc.devRef .tc main_v53) = _
  after_results
  rw [W4_main_arg10]
  rfl
theorem W5_main_arg8 (c : Dev nD) : W5 m ρ c (Proc.devRef .tc main_arg8) = m ((c : Thread nD τ).loc main_arg8) := by
  show StableHlo.after hostOps2 (W4 m ρ c) (Proc.devRef .tc main_arg8) = _
  after_results
  exact W4_main_arg8 m ρ c
theorem W5_main_arg9 (c : Dev nD) : W5 m ρ c (Proc.devRef .tc main_arg9) = m ((c : Thread nD τ).loc main_arg9) := by
  show StableHlo.after hostOps2 (W4 m ρ c) (Proc.devRef .tc main_arg9) = _
  after_results
  exact W4_main_arg9 m ρ c

end Cert.KernelIdeal.Host

end
-- ==== Proof.Region0.lean ====
/- Region 0 of the first program (its first kernel launch), at any contents `V` of the buffers when the region is entered:
   the array the region writes ends holding ONE function of the arrays it reads. Grid point `t` of ten handles rows
   `5000 t … 5000 t + 4999`: it loads that block of rows of the mean array and of the feature array, the whole of both
   weight matrices and of the one-row bias, forms the two matrix products (each entry a sum over the 128 columns), adds
   them and the bias, clamps at zero, and stores the block of rows of the result. The ten blocks tile the 50000 rows. -/
import proofs.«120423_j59734405152779_1_alg».proof.Proof.Gen.KernelIdeal.Frame
import proofs.«120423_j59734405152779_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz : (![0, 0] : Fin 2 → Nat) = fun _ => 0 := funext fun a => by fin_cases a <;> rfl

/-! ## The body's arithmetic at an entry of the block -/

theorem lhs_row (i : S5000x128.Idx) (u : dot_S5000x128_S128x128_S5000x128_1_0_0_1_n_n.contr.Idx) : (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhs_col (i : S5000x128.Idx) (u : dot_S5000x128_S128x128_S5000x128_1_0_0_1_n_n.contr.Idx) : (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into a zero accumulator, at row `p` and column `q`: the sum over the 128 contracted columns (a
    change of float format is the identity on the extended reals). -/
theorem mm_apply (x : Vec Ideal S5000x128 .f32) (w : Vec Ideal S128x128 .f32) (p : Fin 5000) (q : Fin 128) :
    (matmul (F := Ideal) dot_S5000x128_S128x128_S5000x128_1_0_0_1_n_n none (truncf .bf16 x bitsLt_bf16_f32) (truncf .bf16 w bitsLt_bf16_f32) (constant (F := Ideal) S5000x128 .f32 0x00000000#32) : FVec Ideal S5000x128 .f32) (ix2 p q)
      = ∑ k : Fin 128, x (ix2 p k) * w (ix2 k q) := by
  show FloatOps.matmul dot_S5000x128_S128x128_S5000x128_1_0_0_1_n_n none (truncf .bf16 x bitsLt_bf16_f32) (truncf .bf16 w bitsLt_bf16_f32) (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact rhs_col _ _)
  rw [el, er]
  rfl

/-- The one-row bias broadcast down the block's rows, at row `p` and column `q`. -/
theorem bias_apply (b : Vec Ideal S1x128 .f32) (p : Fin 5000) (q : Fin 128) :
    (broadcastTo S5000x128 b broadcasts_S1x128_S5000x128 : FVec Ideal S5000x128 .f32) (ix2 p q) = b (ix2 0 q) := by
  exact broadcastTo_apply b broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The stored value at row `p`, column `q` of the block, from the loaded blocks. -/
theorem pay_apply (x0 x1 : Vec Ideal S5000x128 .f32) (x2 x3 : Vec Ideal S128x128 .f32) (x4 : Vec Ideal S1x128 .f32) (p : Fin 5000) (q : Fin 128) :
    k0_pay1 (F := Ideal) x0 x1 x2 x3 x4 (ix2 p q)
      = max (((∑ k : Fin 128, x0 (ix2 p k) * x2 (ix2 k q)) + ∑ k : Fin 128, x1 (ix2 p k) * x3 (ix2 k q)) + x4 (ix2 0 q)) Cert.Sage.zero := by
  unfold k0_pay1
  simp only [shapeCast_self]
  show max ((_ + _) + _) _ = _
  rw [mm_apply, mm_apply, bias_apply]
  rfl

/-! ## The blocks of rows -/

/-- The index maps, decided over the ten grid points: the row-blocked windows are at block `(t, 0)`, the weights and
    the bias at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Row `p` of grid point `t`'s block is row `5000 t + p` of the array. -/
def row (t : Fin cfg0.N) (p : Fin 5000) : Fin 50000 := ⟨t.val * 5000 + p.val, by
  have := (idx_facts t).2.2.2.2.2.2.2.2.2.2.2.2; have := p.isLt; omega⟩

variable (V : (c : Dev nD) → (b : Ref sig .tc) → Buf (Elt Ideal) ((c : Thread nD τ).loc b))

theorem blk0_apply (c : Dev nD) (t : Fin cfg0.N) (p : Fin 5000) (k : Fin 128) :
    iblk0 V c 0 t (ix2 p k) = (V c main_v24 : S50000x128.Idx → EReal) (ix2 (row t p) k) := by
  obtain ⟨e0, e1, -⟩ := idx_facts t
  show (V c main_v24 : S50000x128.Idx → EReal) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk1_apply (c : Dev nD) (t : Fin cfg0.N) (p : Fin 5000) (k : Fin 128) :
    iblk0 V c 1 t (ix2 p k) = (V c main_arg0 : S50000x128.Idx → EReal) (ix2 (row t p) k) := by
  obtain ⟨-, -, e0, e1, -⟩ := idx_facts t
  show (V c main_arg0 : S50000x128.Idx → EReal) (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk2_apply (c : Dev nD) (t : Fin cfg0.N) (k : Fin 128) (q : Fin 128) :
    iblk0 V c 2 t (ix2 k q) = (V c main_arg2 : S128x128.Idx → EReal) (ix2 k q) := by
  obtain ⟨-, -, -, -, e0, e1, -⟩ := idx_facts t
  show (V c main_arg2 : S128x128.Idx → EReal) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem blk3_apply (c : Dev nD) (t : Fin cfg0.N) (k : Fin 128) (q : Fin 128) :
    iblk0 V c 3 t (ix2 k q) = (V c main_arg3 : S128x128.Idx → EReal) (ix2 k q) := by
  obtain ⟨-, -, -, -, -, -, e0, e1, -⟩ := idx_facts t
  show (V c main_arg3 : S128x128.Idx → EReal) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem blk4_apply (c : Dev nD) (t : Fin cfg0.N) (q : Fin 128) :
    iblk0 V c 4 t (ix2 0 q) = (V c main_v25 : S1x128.Idx → EReal) (ix2 0 q) := by
  obtain ⟨-, -, -, -, -, -, -, -, e0, e1, -⟩ := idx_facts t
  show (V c main_v25 : S1x128.Idx → EReal) (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## The whole array -/

/-- What the region's output array ends holding, as one function of the arrays the region reads. -/
def G (a0 a1 : S50000x128.Idx → EReal) (a2 a3 : S128x128.Idx → EReal) (a4 : S1x128.Idx → EReal) : S50000x128.Idx → EReal :=
  Cert.Sage.toArr (Cert.Sage.relu (Cert.Sage.lin a0 a1 a2 a3 a4))

/-- What grid point `t` writes back is block `t` of `G` of the arrays as the region finds them. -/
theorem flushed_eq (c : Dev nD) (t : Fin cfg0.N) :
    (dat0 V c).flushed 5 t = ((cfg0.win 5).blk t).view.read (Elt Ideal) (G (V c main_v24) (V c main_arg0) (V c main_arg2) (V c main_arg3) (V c main_v25)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hemb : ((cfg0.win 5).blk t).view.emb (ix2 p q) = (ix2 (row t p) q : S50000x128.Idx) := by
    obtain ⟨-, -, -, -, -, -, -, -, -, -, e0, e1, -⟩ := idx_facts t
    refine funext fun a => Fin.ext ?_
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = G (V c main_v24) (V c main_arg0) (V c main_arg2) (V c main_arg3) (V c main_v25) (((cfg0.win 5).blk t).view.emb (ix2 p q))
  rw [hemb]
  refine (pay_apply (iblk0 V c 0 t) (iblk0 V c 1 t) (iblk0 V c 2 t) (iblk0 V c 3 t) (iblk0 V c 4 t) p q).trans ?_
  simp only [blk0_apply V c t, blk1_apply V c t, blk2_apply V c t, blk3_apply V c t, blk4_apply V c t]
  rfl

/-- An index is in grid point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

theorem idx_onto : ∀ u : Fin 10, ∃ t : Fin cfg0.N, t.val = u.val :=
  (by decide +kernel : ∀ u : Fin 10, ∃ t : Fin grid0.N, t.val = u.val)

/-- Every row lies in some grid point's block: row `r` in block `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, e0, e1, -⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY the region leaves: `G` of the arrays it found. -/
theorem final (c : Dev nD) :
    (dat0 V c).arrAt 5 cfg0.N = G (V c main_v24) (V c main_arg0) (V c main_arg2) (V c main_arg3) (V c main_v25) :=
  (dat0 V c).arrAt_eq_of_cover 5 _ (fun t _ => flushed_eq V c t) cover

end Cert.KernelIdeal.Reg0

end
-- ==== Proof.Region1.lean ====
/- Region 1 of the first program (its second kernel launch), at any contents `V` of the buffers when the region is entered:
   the array the region writes ends holding ONE function of the arrays it reads. Grid point `t` of ten handles rows
   `5000 t … 5000 t + 4999`: it loads that block of rows of the mean array and of the feature array, the whole of both
   weight matrices and of the one-row bias, forms the two matrix products (each entry a sum over the 128 columns), adds
   them and the bias, clamps at zero, and stores the block of rows of the result. The ten blocks tile the 50000 rows. -/
import proofs.«120423_j59734405152779_1_alg».proof.Proof.Gen.KernelIdeal.Frame
import proofs.«120423_j59734405152779_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz : (![0, 0] : Fin 2 → Nat) = fun _ => 0 := funext fun a => by fin_cases a <;> rfl

/-! ## The body's arithmetic at an entry of the block -/

theorem lhs_row (i : S5000x128.Idx) (u : dot_S5000x128_S128x128_S5000x128_1_0_0_1_n_n.contr.Idx) : (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhs_col (i : S5000x128.Idx) (u : dot_S5000x128_S128x128_S5000x128_1_0_0_1_n_n.contr.Idx) : (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into a zero accumulator, at row `p` and column `q`: the sum over the 128 contracted columns (a
    change of float format is the identity on the extended reals). -/
theorem mm_apply (x : Vec Ideal S5000x128 .f32) (w : Vec Ideal S128x128 .f32) (p : Fin 5000) (q : Fin 128) :
    (matmul (F := Ideal) dot_S5000x128_S128x128_S5000x128_1_0_0_1_n_n none (truncf .bf16 x bitsLt_bf16_f32) (truncf .bf16 w bitsLt_bf16_f32) (constant (F := Ideal) S5000x128 .f32 0x00000000#32) : FVec Ideal S5000x128 .f32) (ix2 p q)
      = ∑ k : Fin 128, x (ix2 p k) * w (ix2 k q) := by
  show FloatOps.matmul dot_S5000x128_S128x128_S5000x128_1_0_0_1_n_n none (truncf .bf16 x bitsLt_bf16_f32) (truncf .bf16 w bitsLt_bf16_f32) (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact rhs_col _ _)
  rw [el, er]
  rfl

/-- The one-row bias broadcast down the block's rows, at row `p` and column `q`. -/
theorem bias_apply (b : Vec Ideal S1x128 .f32) (p : Fin 5000) (q : Fin 128) :
    (broadcastTo S5000x128 b broadcasts_S1x128_S5000x128 : FVec Ideal S5000x128 .f32) (ix2 p q) = b (ix2 0 q) := by
  exact broadcastTo_apply b broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The stored value at row `p`, column `q` of the block, from the loaded blocks. -/
theorem pay_apply (x0 x1 : Vec Ideal S5000x128 .f32) (x2 x3 : Vec Ideal S128x128 .f32) (x4 : Vec Ideal S1x128 .f32) (p : Fin 5000) (q : Fin 128) :
    k1_pay1 (F := Ideal) x0 x1 x2 x3 x4 (ix2 p q)
      = max (((∑ k : Fin 128, x0 (ix2 p k) * x2 (ix2 k q)) + ∑ k : Fin 128, x1 (ix2 p k) * x3 (ix2 k q)) + x4 (ix2 0 q)) Cert.Sage.zero := by
  unfold k1_pay1
  simp only [shapeCast_self]
  show max ((_ + _) + _) _ = _
  rw [mm_apply, mm_apply, bias_apply]
  rfl

/-! ## The blocks of rows -/

/-- The index maps, decided over the ten grid points: the row-blocked windows are at block `(t, 0)`, the weights and
    the bias at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- Row `p` of grid point `t`'s block is row `5000 t + p` of the array. -/
def row (t : Fin cfg1.N) (p : Fin 5000) : Fin 50000 := ⟨t.val * 5000 + p.val, by
  have := (idx_facts t).2.2.2.2.2.2.2.2.2.2.2.2; have := p.isLt; omega⟩

variable (V : (c : Dev nD) → (b : Ref sig .tc) → Buf (Elt Ideal) ((c : Thread nD τ).loc b))

theorem blk0_apply (c : Dev nD) (t : Fin cfg1.N) (p : Fin 5000) (k : Fin 128) :
    iblk1 V c 0 t (ix2 p k) = (V c main_v38 : S50000x128.Idx → EReal) (ix2 (row t p) k) := by
  obtain ⟨e0, e1, -⟩ := idx_facts t
  show (V c main_v38 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem blk1_apply (c : Dev nD) (t : Fin cfg1.N) (p : Fin 5000) (k : Fin 128) :
    iblk1 V c 1 t (ix2 p k) = (V c main_v26 : S50000x128.Idx → EReal) (ix2 (row t p) k) := by
  obtain ⟨-, -, e0, e1, -⟩ := idx_facts t
  show (V c main_v26 : S50000x128.Idx → EReal) (((cfg1.win 1).blk t).view.emb (ix2 p k)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem blk2_apply (c : Dev nD) (t : Fin cfg1.N) (k : Fin 128) (q : Fin 128) :
    iblk1 V c 2 t (ix2 k q) = (V c main_arg5 : S128x128.Idx → EReal) (ix2 k q) := by
  obtain ⟨-, -, -, -, e0, e1, -⟩ := idx_facts t
  show (V c main_arg5 : S128x128.Idx → EReal) (((cfg1.win 2).blk t).view.emb (ix2 k q)) = _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem blk3_apply (c : Dev nD) (t : Fin cfg1.N) (k : Fin 128) (q : Fin 128) :
    iblk1 V c 3 t (ix2 k q) = (V c main_arg6 : S128x128.Idx → EReal) (ix2 k q) := by
  obtain ⟨-, -, -, -, -, -, e0, e1, -⟩ := idx_facts t
  show (V c main_arg6 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem blk4_apply (c : Dev nD) (t : Fin cfg1.N) (q : Fin 128) :
    iblk1 V c 4 t (ix2 0 q) = (V c main_v39 : S1x128.Idx → EReal) (ix2 0 q) := by
  obtain ⟨-, -, -, -, -, -, -, -, e0, e1, -⟩ := idx_facts t
  show (V c main_v39 : S1x128.Idx → EReal) (((cfg1.win 4).blk t).view.emb (ix2 0 q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-! ## The whole array -/

/-- What the region's output array ends holding, as one function of the arrays the region reads. -/
def G (a0 a1 : S50000x128.Idx → EReal) (a2 a3 : S128x128.Idx → EReal) (a4 : S1x128.Idx → EReal) : S50000x128.Idx → EReal :=
  Cert.Sage.toArr (Cert.Sage.relu (Cert.Sage.lin a0 a1 a2 a3 a4))

/-- What grid point `t` writes back is block `t` of `G` of the arrays as the region finds them. -/
theorem flushed_eq (c : Dev nD) (t : Fin cfg1.N) :
    (dat1 V c).flushed 5 t = ((cfg1.win 5).blk t).view.read (Elt Ideal) (G (V c main_v38) (V c main_v26) (V c main_arg5) (V c main_arg6) (V c main_v39)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hemb : ((cfg1.win 5).blk t).view.emb (ix2 p q) = (ix2 (row t p) q : S50000x128.Idx) := by
    obtain ⟨-, -, -, -, -, -, -, -, -, -, e0, e1, -⟩ := idx_facts t
    refine funext fun a => Fin.ext ?_
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = G (V c main_v38) (V c main_v26) (V c main_arg5) (V c main_arg6) (V c main_v39) (((cfg1.win 5).blk t).view.emb (ix2 p q))
  rw [hemb]
  refine (pay_apply (iblk1 V c 0 t) (iblk1 V c 1 t) (iblk1 V c 2 t) (iblk1 V c 3 t) (iblk1 V c 4 t) p q).trans ?_
  simp only [blk0_apply V c t, blk1_apply V c t, blk2_apply V c t, blk3_apply V c t, blk4_apply V c t]
  rfl

/-- An index is in grid point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

theorem idx_onto : ∀ u : Fin 10, ∃ t : Fin cfg1.N, t.val = u.val :=
  (by decide +kernel : ∀ u : Fin 10, ∃ t : Fin grid1.N, t.val = u.val)

/-- Every row lies in some grid point's block: row `r` in block `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, e0, e1, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY the region leaves: `G` of the arrays it found. -/
theorem final (c : Dev nD) :
    (dat1 V c).arrAt 5 cfg1.N = G (V c main_v38) (V c main_v26) (V c main_arg5) (V c main_arg6) (V c main_v39) :=
  (dat1 V c).arrAt_eq_of_cover 5 _ (fun t _ => flushed_eq V c t) cover

end Cert.KernelIdeal.Reg1

end
-- ==== Proof.Region2.lean ====
/- Region 2 of the first program (its third kernel launch), at any contents `V` of the buffers when the region is entered:
   the array the region writes ends holding ONE function of the arrays it reads. Grid point `t` of ten handles rows
   `5000 t … 5000 t + 4999`: it loads that block of rows of the mean array and of the feature array, the whole of both
   weight matrices and of the one-row bias, forms the two matrix products (each entry a sum over the 128 columns), adds
   them and the bias and stores the block of rows of the result. The ten blocks tile the 50000 rows. -/
import proofs.«120423_j59734405152779_1_alg».proof.Proof.Gen.KernelIdeal.Frame
import proofs.«120423_j59734405152779_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz : (![0, 0] : Fin 2 → Nat) = fun _ => 0 := funext fun a => by fin_cases a <;> rfl

/-! ## The body's arithmetic at an entry of the block -/

theorem lhs_row (i : S5000x64.Idx) (u : dot_S5000x128_S128x64_S5000x64_1_0_0_1_n_n.contr.Idx) : (dot_S5000x128_S128x64_S5000x64_1_0_0_1_n_n.lhsIdx i u 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem rhs_col (i : S5000x64.Idx) (u : dot_S5000x128_S128x64_S5000x64_1_0_0_1_n_n.contr.Idx) : (dot_S5000x128_S128x64_S5000x64_1_0_0_1_n_n.rhsIdx i u 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A matrix product into a zero accumulator, at row `p` and column `q`: the sum over the 128 contracted columns (a
    change of float format is the identity on the extended reals). -/
theorem mm_apply (x : Vec Ideal S5000x128 .f32) (w : Vec Ideal S128x64 .f32) (p : Fin 5000) (q : Fin 64) :
    (matmul (F := Ideal) dot_S5000x128_S128x64_S5000x64_1_0_0_1_n_n none (truncf .bf16 x bitsLt_bf16_f32) (truncf .bf16 w bitsLt_bf16_f32) (constant (F := Ideal) S5000x64 .f32 0x00000000#32) : FVec Ideal S5000x64 .f32) (ix2 p q)
      = ∑ k : Fin 128, x (ix2 p k) * w (ix2 k q) := by
  show FloatOps.matmul dot_S5000x128_S128x64_S5000x64_1_0_0_1_n_n none (truncf .bf16 x bitsLt_bf16_f32) (truncf .bf16 w bitsLt_bf16_f32) (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl (ix2 p q) _).trans hk
    | ⟨1, _⟩ => exact rhs_col _ _)
  rw [el, er]
  rfl

/-- The one-row bias broadcast down the block's rows, at row `p` and column `q`. -/
theorem bias_apply (b : Vec Ideal S1x64 .f32) (p : Fin 5000) (q : Fin 64) :
    (broadcastTo S5000x64 b broadcasts_S1x64_S5000x64 : FVec Ideal S5000x64 .f32) (ix2 p q) = b (ix2 0 q) := by
  exact broadcastTo_apply b broadcasts_S1x64_S5000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- The stored value at row `p`, column `q` of the block, from the loaded blocks. -/
theorem pay_apply (x0 x1 : Vec Ideal S5000x128 .f32) (x2 x3 : Vec Ideal S128x64 .f32) (x4 : Vec Ideal S1x64 .f32) (p : Fin 5000) (q : Fin 64) :
    k2_pay1 (F := Ideal) x0 x1 x2 x3 x4 (ix2 p q)
      = ((∑ k : Fin 128, x0 (ix2 p k) * x2 (ix2 k q)) + ∑ k : Fin 128, x1 (ix2 p k) * x3 (ix2 k q)) + x4 (ix2 0 q) := by
  unfold k2_pay1
  simp only [shapeCast_self]
  show (_ + _) + _ = _
  rw [mm_apply, mm_apply, bias_apply]

/-! ## The blocks of rows -/

/-- The index maps, decided over the ten grid points: the row-blocked windows are at block `(t, 0)`, the weights and
    the bias at block `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- Row `p` of grid point `t`'s block is row `5000 t + p` of the array. -/
def row (t : Fin cfg2.N) (p : Fin 5000) : Fin 50000 := ⟨t.val * 5000 + p.val, by
  have := (idx_facts t).2.2.2.2.2.2.2.2.2.2.2.2; have := p.isLt; omega⟩

variable (V : (c : Dev nD) → (b : Ref sig .tc) → Buf (Elt Ideal) ((c : Thread nD τ).loc b))

theorem blk0_apply (c : Dev nD) (t : Fin cfg2.N) (p : Fin 5000) (k : Fin 128) :
    iblk2 V c 0 t (ix2 p k) = (V c main_v52 : S50000x128.Idx → EReal) (ix2 (row t p) k) := by
  obtain ⟨e0, e1, -⟩ := idx_facts t
  show (V c main_v52 : S50000x128.Idx → EReal) (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem blk1_apply (c : Dev nD) (t : Fin cfg2.N) (p : Fin 5000) (k : Fin 128) :
    iblk2 V c 1 t (ix2 p k) = (V c main_v40 : S50000x128.Idx → EReal) (ix2 (row t p) k) := by
  obtain ⟨-, -, e0, e1, -⟩ := idx_facts t
  show (V c main_v40 : S50000x128.Idx → EReal) (((cfg2.win 1).blk t).view.emb (ix2 p k)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

theorem blk2_apply (c : Dev nD) (t : Fin cfg2.N) (k : Fin 128) (q : Fin 64) :
    iblk2 V c 2 t (ix2 k q) = (V c main_arg8 : S128x64.Idx → EReal) (ix2 k q) := by
  obtain ⟨-, -, -, -, e0, e1, -⟩ := idx_facts t
  show (V c main_arg8 : S128x64.Idx → EReal) (((cfg2.win 2).blk t).view.emb (ix2 k q)) = _
  refine congrArg _ (funext fun a => Fin.ext ?_)
  match a with
  | ⟨0, _⟩ => show win2_2.index t (0 : Fin 2) * 128 + 1 * k.val = k.val; omega
  | ⟨1, _⟩ => show win2_2.index t (1 : Fin 2) * 64 + 1 * q.val = q.val; omega

theorem blk3_apply (c : Dev nD) (t : Fin cfg2.N) (k : Fin 128) (q : Fin 64) :
    iblk2 V c 3 t (ix2 k q) = (V c main_arg9 : S128x64.Idx → EReal) (ix2 k q) := by
  obtain ⟨-, -, -, -, -, -, e0, e1, -⟩ := idx_facts t
  show (V c main_arg9 : S128x64.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 64 + 1 * q.val = q.val; omega

theorem blk4_apply (c : Dev nD) (t : Fin cfg2.N) (q : Fin 64) :
    iblk2 V c 4 t (ix2 0 q) = (V c main_v53 : S1x64.Idx → EReal) (ix2 0 q) := by
  obtain ⟨-, -, -, -, -, -, -, -, e0, e1, -⟩ := idx_facts t
  show (V c main_v53 : S1x64.Idx → EReal) (((cfg2.win 4).blk t).view.emb (ix2 0 q)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-! ## The whole array -/

/-- What the region's output array ends holding, as one function of the arrays the region reads. -/
def G (a0 a1 : S50000x128.Idx → EReal) (a2 a3 : S128x64.Idx → EReal) (a4 : S1x64.Idx → EReal) : S50000x64.Idx → EReal :=
  Cert.Sage.toArr (Cert.Sage.lin a0 a1 a2 a3 a4)

/-- What grid point `t` writes back is block `t` of `G` of the arrays as the region finds them. -/
theorem flushed_eq (c : Dev nD) (t : Fin cfg2.N) :
    (dat2 V c).flushed 5 t = ((cfg2.win 5).blk t).view.read (Elt Ideal) (G (V c main_v52) (V c main_v40) (V c main_arg8) (V c main_arg9) (V c main_v53)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  have hemb : ((cfg2.win 5).blk t).view.emb (ix2 p q) = (ix2 (row t p) q : S50000x64.Idx) := by
    obtain ⟨-, -, -, -, -, -, -, -, -, -, e0, e1, -⟩ := idx_facts t
    refine funext fun a => Fin.ext ?_
    match a with
    | ⟨0, _⟩ => show win2_5.index t (0 : Fin 2) * 5000 + 1 * p.val = t.val * 5000 + p.val; omega
    | ⟨1, _⟩ => show win2_5.index t (1 : Fin 2) * 64 + 1 * q.val = q.val; omega
  show k2_pay1 (F := Ideal) (iblk2 V c 0 t) (iblk2 V c 1 t) (iblk2 V c 2 t) (iblk2 V c 3 t) (iblk2 V c 4 t) (ix2 p q)
    = G (V c main_v52) (V c main_v40) (V c main_arg8) (V c main_arg9) (V c main_v53) (((cfg2.win 5).blk t).view.emb (ix2 p q))
  rw [hemb]
  refine (pay_apply (iblk2 V c 0 t) (iblk2 V c 1 t) (iblk2 V c 2 t) (iblk2 V c 3 t) (iblk2 V c 4 t) p q).trans ?_
  simp only [blk0_apply V c t, blk1_apply V c t, blk2_apply V c t, blk3_apply V c t, blk4_apply V c t]
  rfl

/-- An index is in grid point `t`'s block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v54).slice (win2_5.rect t)).set ↔ _
  rw [View.set_slice_whole, Rect.mem_set_unit]
  exact Iff.rfl

theorem idx_onto : ∀ u : Fin 10, ∃ t : Fin cfg2.N, t.val = u.val :=
  (by decide +kernel : ∀ u : Fin 10, ∃ t : Fin grid2.N, t.val = u.val)

/-- Every row lies in some grid point's block: row `r` in block `r / 5000`. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto ⟨(i 0).val / 5000, by omega⟩
  have ht' : t.val = (i 0).val / 5000 := ht
  obtain ⟨-, -, -, -, -, -, -, -, -, -, e0, e1, -⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE ARRAY the region leaves: `G` of the arrays it found. -/
theorem final (c : Dev nD) :
    (dat2 V c).arrAt 5 cfg2.N = G (V c main_v52) (V c main_v40) (V c main_arg8) (V c main_arg9) (V c main_v53) :=
  (dat2 V c).arrAt_eq_of_cover 5 _ (fun t _ => flushed_eq V c t) cover

end Cert.KernelIdeal.Reg2

end
-- ==== Proof.KernelValue.lean ====
/- The first program's result as the three-layer network in its "multiply by the reciprocal count, add the bias last"
   form. Each kernel region leaves in its output array the dense part of a layer applied to the arrays it found
   (the region modules); each stretch of host operations before it hands it the mean array built from the previous
   layer's output (the host module). Chaining the three gives the final array as one function of the arguments. -/
import proofs.«120423_j59734405152779_1_alg».proof.Proof.KernelRun
import proofs.«120423_j59734405152779_1_alg».proof.Proof.KHost
import proofs.«120423_j59734405152779_1_alg».proof.Proof.Region0
import proofs.«120423_j59734405152779_1_alg».proof.Proof.Region1
import proofs.«120423_j59734405152779_1_alg».proof.Proof.Region2

set_option maxRecDepth 16384

noncomputable section

namespace Cert.KernelIdeal.NetValue

open Cert.KernelIdeal Cert.KernelIdeal.Gen Cert.KernelIdeal.Host
open Idealize.ShloMosaic Idealize.ShloMosaic.TcCoe Idealize.SL.Sem Idealize.ShloMosaic.ValueIdx

variable (m : (ℓ : Loc nD τ sig) → Buf (Elt Ideal) ℓ) (ρ : Dev nD → PrngReg)

/-- The clamped in-degree of node `r`. -/
abbrev cm (e : E) : Fin 50000 → EReal := fun r => cmax e (ix1 r)

/-- The dense part of a layer, applied to the host's mean array and a reshaped bias, is the layer's first form. -/
theorem lin_mean128 (e : E) (h : H) (Wl Wr : (⟨S128x128, .f32⟩ : BufTy).Contents (Elt Ideal)) (b : (⟨S128, .f32⟩ : BufTy).Contents (Elt Ideal)) :
    Cert.Sage.lin (mean e h) h Wl Wr (biasRow128 b) = Cert.Sage.layerMul (agg e) (cm e) h Wl Wr (fun q => b (ix1 q)) :=
  Cert.Sage.lin_eq_layerMul (agg e) (cm e) (mean e h) h Wl Wr (biasRow128 b) (fun q => b (ix1 q))
    (fun r k => meanOf_apply (agg e h) (cmax e) r k) (fun q => biasRow128_apply b q)
theorem lin_mean64 (e : E) (h : H) (Wl Wr : (⟨S128x64, .f32⟩ : BufTy).Contents (Elt Ideal)) (b : (⟨S64, .f32⟩ : BufTy).Contents (Elt Ideal)) :
    Cert.Sage.lin (mean e h) h Wl Wr (biasRow64 b) = Cert.Sage.layerMul (agg e) (cm e) h Wl Wr (fun q => b (ix1 q)) :=
  Cert.Sage.lin_eq_layerMul (agg e) (cm e) (mean e h) h Wl Wr (biasRow64 b) (fun q => b (ix1 q))
    (fun r k => meanOf_apply (agg e h) (cmax e) r k) (fun q => biasRow64_apply b q)

/-- The first layer's output, as the first region leaves it. -/
def out0 (c : Dev nD) : H :=
  Cert.Sage.toArr (Cert.Sage.relu (Cert.Sage.layerMul (agg (m ((c : Thread nD τ).loc main_arg1))) (cm (m ((c : Thread nD τ).loc main_arg1)))
    (m ((c : Thread nD τ).loc main_arg0)) (m ((c : Thread nD τ).loc main_arg2)) (m ((c : Thread nD τ).loc main_arg3)) (fun q => m ((c : Thread nD τ).loc main_arg4) (ix1 q))))

theorem W2_v26 (c : Dev nD) : (W2 m ρ c (Proc.devRef .tc main_v26) : H) = out0 m c := by
  refine ((W2_arr m ρ c 5).trans (Reg0.final (V1 m ρ) c)).trans ?_
  have e0 : (V1 m ρ c main_v24 : H) = mean (m ((c : Thread nD τ).loc main_arg1)) (m ((c : Thread nD τ).loc main_arg0)) := W1_v24 m ρ c
  have e1 : V1 m ρ c main_arg0 = m ((c : Thread nD τ).loc main_arg0) := W1_main_arg0 m ρ c
  have e2 : V1 m ρ c main_arg2 = m ((c : Thread nD τ).loc main_arg2) := W1_main_arg2 m ρ c
  have e3 : V1 m ρ c main_arg3 = m ((c : Thread nD τ).loc main_arg3) := W1_main_arg3 m ρ c
  have e4 : (V1 m ρ c main_v25 : (⟨S1x128, .f32⟩ : BufTy).Contents (Elt Ideal)) = biasRow128 (m ((c : Thread nD τ).loc main_arg4)) := W1_v25 m ρ c
  rw [e0, e1, e2, e3, e4]
  unfold Reg0.G out0
  rw [lin_mean128]

/-- The second layer's output, as the second region leaves it. -/
def out1 (c : Dev nD) : H :=
  Cert.Sage.toArr (Cert.Sage.relu (Cert.Sage.layerMul (agg (m ((c : Thread nD τ).loc main_arg1))) (cm (m ((c : Thread nD τ).loc main_arg1)))
    (out0 m c) (m ((c : Thread nD τ).loc main_arg5)) (m ((c : Thread nD τ).loc main_arg6)) (fun q => m ((c : Thread nD τ).loc main_arg7) (ix1 q))))

theorem W4_v40 (c : Dev nD) : (W4 m ρ c (Proc.devRef .tc main_v40) : H) = out1 m c := by
  refine ((W4_arr m ρ c 5).trans (Reg1.final (V3 m ρ) c)).trans ?_
  have e0 : (V3 m ρ c main_v38 : H) = mean (m ((c : Thread nD τ).loc main_arg1)) (out0 m c) := (W3_v38 m ρ c).trans (by rw [W2_v26])
  have e1 : (V3 m ρ c main_v26 : H) = out0 m c := (W3_v26 m ρ c).trans (W2_v26 m ρ c)
  have e2 : V3 m ρ c main_arg5 = m ((c : Thread nD τ).loc main_arg5) := W3_main_arg5 m ρ c
  have e3 : V3 m ρ c main_arg6 = m ((c : Thread nD τ).loc main_arg6) := W3_main_arg6 m ρ c
  have e4 : (V3 m ρ c main_v39 : (⟨S1x128, .f32⟩ : BufTy).Contents (Elt Ideal)) = biasRow128 (m ((c : Thread nD τ).loc main_arg7)) := W3_v39 m ρ c
  rw [e0, e1, e2, e3, e4]
  unfold Reg1.G out1
  rw [lin_mean128]

/-- The network's result, as the third region leaves it. -/
def out2 (c : Dev nD) : (⟨S50000x64, .f32⟩ : BufTy).Contents (Elt Ideal) :=
  Cert.Sage.toArr (Cert.Sage.layerMul (agg (m ((c : Thread nD τ).loc main_arg1))) (cm (m ((c : Thread nD τ).loc main_arg1)))
    (out1 m c) (m ((c : Thread nD τ).loc main_arg8)) (m ((c : Thread nD τ).loc main_arg9)) (fun q => m ((c : Thread nD τ).loc main_arg10) (ix1 q)))

theorem W6_v54 (c : Dev nD) : (W6 m ρ c (Proc.devRef .tc main_v54) : (⟨S50000x64, .f32⟩ : BufTy).Contents (Elt Ideal)) = out2 m c := by
  refine ((W6_arr m ρ c 5).trans (Reg2.final (V5 m ρ) c)).trans ?_
  have e0 : (V5 m ρ c main_v52 : H) = mean (m ((c : Thread nD τ).loc main_arg1)) (out1 m c) := (W5_v52 m ρ c).trans (by rw [W4_v40])
  have e1 : (V5 m ρ c main_v40 : H) = out1 m c := (W5_v40 m ρ c).trans (W4_v40 m ρ c)
  have e2 : V5 m ρ c main_arg8 = m ((c : Thread nD τ).loc main_arg8) := W5_main_arg8 m ρ c
  have e3 : V5 m ρ c main_arg9 = m ((c : Thread nD τ).loc main_arg9) := W5_main_arg9 m ρ c
  have e4 : (V5 m ρ c main_v53 : (⟨S1x64, .f32⟩ : BufTy).Contents (Elt Ideal)) = biasRow64 (m ((c : Thread nD τ).loc main_arg10)) := W5_v53 m ρ c
  rw [e0, e1, e2, e3, e4]
  unfold Reg2.G out2
  rw [lin_mean64]

/-- The result is the network in its first form, over the program's own aggregate and clamped in-degrees. -/
theorem out2_eq (c : Dev nD) : out2 m c = Cert.Sage.toArr (Cert.Sage.netMul (agg (m ((c : Thread nD τ).loc main_arg1))) (cm (m ((c : Thread nD τ).loc main_arg1)))
    (m ((c : Thread nD τ).loc main_arg0)) (m ((c : Thread nD τ).loc main_arg2)) (m ((c : Thread nD τ).loc main_arg3)) (fun q => m ((c : Thread nD τ).loc main_arg4) (ix1 q))
    (m ((c : Thread nD τ).loc main_arg5)) (m ((c : Thread nD τ).loc main_arg6)) (fun q => m ((c : Thread nD τ).loc main_arg7) (ix1 q))
    (m ((c : Thread nD τ).loc main_arg8)) (m ((c : Thread nD τ).loc main_arg9)) (fun q => m ((c : Thread nD τ).loc main_arg10) (ix1 q))) := by
  unfold out2 out1 out0 Cert.Sage.netMul
  rfl

/-- THE RUN of the first program: every weakly fair execution terminates without a fault, the result buffer ends at
    the network's value and the arguments end as launched. -/
theorem run : θ_run defs (onTc (τ := τ) (main (F := Ideal))) ⟨m, fun _ => 0, ρ⟩ (fun r => ∀ c : Dev nD,
      r.2.mem ((c.tc : Thread nD τ).loc main_v54) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W6_v54 m ρ c), (h c).2⟩) (RunValue.run_value (F := Ideal) m ρ)

end Cert.KernelIdeal.NetValue

end
-- ==== Proof.RefSpec.lean ====
/- The second program (plain host operations) read as the three-layer network in its "divide, then add the bias to the
   first product" form. Each layer gathers the features of every edge's source node, scatter-adds them at the edge's
   destination (`agg`), divides row `r` by the clamped in-degree `max(cnt r, 1)`, and returns
   `(mean · Wl + b) + h · Wr`; the first two layers are followed by the rectifier. The gather and the scatter-add stay
   closed: the layer is read over ANY aggregated array, and they are the same operations the first program applies. -/
import proofs.«120423_j59734405152779_1_alg».proof.Proof.Gen.ReferenceIdeal.Read
import proofs.«120423_j59734405152779_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.ValueIdx
open scoped BigOperators

/-- The edge list's type. -/
abbrev E := (⟨S2x800000, .i32⟩ : BufTy).Contents (Elt Ideal)
/-- The node features' type. -/
abbrev H := (⟨S50000x128, .f32⟩ : BufTy).Contents (Elt Ideal)
/-- A value per node. -/
abbrev C := (⟨S50000, .f32⟩ : BufTy).Contents (Elt Ideal)

/-- The edges' source nodes. -/
def src1 (e : E) : (⟨S800000, .i32⟩ : BufTy).Contents (Elt Ideal) :=
  shapeCast S800000 (extractStridedSlice S1x800000 ![0, 0] e slices_S2x800000_S1x800000_0_0) shapeCasts_S1x800000_S800000
/-- The edges' destination nodes. -/
def dst1 (e : E) : (⟨S800000, .i32⟩ : BufTy).Contents (Elt Ideal) :=
  shapeCast S800000 (extractStridedSlice S1x800000 ![1, 0] e slices_S2x800000_S1x800000_1_0) shapeCasts_S1x800000_S800000
/-- The source nodes as gather indices: a negative index has 50000 added. -/
def srcIdx (e : E) : (⟨S800000x1, .i32⟩ : BufTy).Contents (Elt Ideal) :=
  broadcastInDim S800000x1 ![0] bcast_S800000_S800000x1_0
    (select (cmpi .slt (src1 e) (broadcastInDim S800000 ![] bcast_S_S800000 (constantI S_ 32 0#32)))
      (addi (src1 e) (broadcastInDim S800000 ![] bcast_S_S800000 (constantI S_ 32 50000#32))) (src1 e))
/-- The destination nodes as scatter indices. -/
def dstIdx (e : E) : (⟨S800000x1, .i32⟩ : BufTy).Contents (Elt Ideal) :=
  broadcastInDim S800000x1 ![0] bcast_S800000_S800000x1_0 (dst1 e)
/-- The aggregate: at every node, the sum of the features of the sources of its incoming edges. -/
def agg (e : E) (h : H) : H :=
  Host.scatterAdd scatter_S50000x128_S800000x1_S800000x128_1_0_0_1
    (broadcastInDim S50000x128 ![] bcast_S_S50000x128 (constant (F := Ideal) S_ .f32 0x00000000#32)) (dstIdx e)
    (Host.gather gather_S50000x128_S800000x1_S800000x128_1_0_n_n_0_1_1128 h (srcIdx e))
/-- The in-degree of every node. -/
def cnt (e : E) : C :=
  Host.scatterAdd scatter_S50000_S800000x1_S800000_n_0_0_1
    (broadcastInDim S50000 ![] bcast_S_S50000 (constant (F := Ideal) S_ .f32 0x00000000#32)) (dstIdx e)
    (broadcastInDim S800000 ![] bcast_S_S800000 (constant (F := Ideal) S_ .f32 0x3F800000#32))
/-- The constant-one value per node. -/
def ones : C := broadcastInDim S50000 ![] bcast_S_S50000 (constant (F := Ideal) S_ .f32 0x3F800000#32)
/-- A count clamped below at one. -/
def clamp (n : C) : C := maximumf (F := Ideal) (φ := .f32) (s := S50000) n ones
/-- The in-degree clamped below at one. -/
def cmax (e : E) : C := clamp (cnt e)

theorem ones_apply (i : S50000.Idx) : ones i = Cert.Sage.one := rfl
/-- A clamped count is never zero. -/
theorem clamp_ne_zero (n : C) (i : S50000.Idx) : clamp n i ≠ 0 := by
  unfold clamp
  rw [maximumf_apply, ones_apply]
  exact Cert.Sage.max_one_ne_zero _

/-- A per-node value spread along the 128 feature columns. -/
def colB (cm : C) : H :=
  broadcastInDim S50000x128 ![0, 1] bcast_S50000x1_S50000x128_0_1 (broadcastInDim S50000x1 ![0] bcast_S50000_S50000x1_0 cm)

/-- A per-node value spread along the columns reads, at row `r`, the node's value. -/
theorem colB_apply (cm : C) (r : Fin 50000) (k : Fin 128) :
    colB cm (ix2 r k) = cm (ix1 r) := by
  unfold colB
  rw [broadcastInDim_apply _ bcast_S50000x1_S50000x128_0_1 _ (ix2 r k) (ix2 r 0) (fun a => match a with
    | ⟨0, _⟩ => by show r.val = if (50000 : Nat) = 1 then 0 else r.val; rw [if_neg (by decide)]
    | ⟨1, _⟩ => by show (0 : Nat) = if (1 : Nat) = 1 then 0 else k.val; rw [if_pos rfl])]
  exact broadcastInDim_apply _ bcast_S50000_S50000x1_0 cm (ix2 r 0) (ix1 r) (fun a => match a with
    | ⟨0, _⟩ => by show r.val = if (50000 : Nat) = 1 then 0 else r.val; rw [if_neg (by decide)])

/-- The host's quotient of two arrays, entry by entry. -/
theorem hostDivf_apply {s : Shape} {φ : FTy} (a b : FVec Ideal s φ) (i : s.Idx) : Host.divf a b i = Ideal.div (a i) (b i) := rfl

/-! ## A layer with 128 output columns -/

theorem lhs_row128 (i : S50000x128.Idx) (u : dot_S50000x128_S128x128_S50000x128_1_0_0_1_n_n.contr.Idx) : (dot_S50000x128_S128x128_S50000x128_1_0_0_1_n_n.lhsIdx i u 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem rhs_col128 (i : S50000x128.Idx) (u : dot_S50000x128_S128x128_S50000x128_1_0_0_1_n_n.contr.Idx) : (dot_S50000x128_S128x128_S50000x128_1_0_0_1_n_n.rhsIdx i u 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's matrix product. -/
def dg128 (l : H) (w : (⟨S128x128, .f32⟩ : BufTy).Contents (Elt Ideal)) : (⟨S50000x128, .f32⟩ : BufTy).Contents (Elt Ideal) := Host.dotGeneral (F := Ideal) (φ₁ := .f32) (φ₂ := .f32) dot_S50000x128_S128x128_S50000x128_1_0_0_1_n_n none l w

/-- At row `r` and column `q` it is the sum over the 128 contracted columns. -/
theorem dg_apply128 (l : H) (w : (⟨S128x128, .f32⟩ : BufTy).Contents (Elt Ideal)) (r : Fin 50000) (q : Fin 128) :
    dg128 l w (ix2 r q) = ∑ k : Fin 128, l (ix2 r k) * w (ix2 k q) := by
  unfold dg128
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact lhs_row128 _ _
    | ⟨1, _⟩ => exact (dot_S50000x128_S128x128_S50000x128_1_0_0_1_n_n.lhsIdx_val_of_single rfl (ix2 r q) _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (dot_S50000x128_S128x128_S50000x128_1_0_0_1_n_n.rhsIdx_val_of_single rfl (ix2 r q) _).trans hk
    | ⟨1, _⟩ => exact rhs_col128 _ _)
  rw [el, er]

/-- The bias spread down the rows. -/
def rowB128 (b : (⟨S128, .f32⟩ : BufTy).Contents (Elt Ideal)) : (⟨S50000x128, .f32⟩ : BufTy).Contents (Elt Ideal) :=
  broadcastInDim S50000x128 ![0, 1] bcast_S1x128_S50000x128_0_1 (broadcastInDim S1x128 ![1] bcast_S128_S1x128_1 b)

theorem rowB128_apply (b : (⟨S128, .f32⟩ : BufTy).Contents (Elt Ideal)) (r : Fin 50000) (q : Fin 128) :
    rowB128 b (ix2 r q) = b (ix1 q) := by
  unfold rowB128
  rw [broadcastInDim_apply _ bcast_S1x128_S50000x128_0_1 _ (ix2 r q) (ix2 0 q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])]
  exact broadcastInDim_apply _ bcast_S128_S1x128_1 b (ix2 0 q) (ix1 q) (fun a => match a with
    | ⟨0, _⟩ => by show q.val = if (128 : Nat) = 1 then 0 else q.val; rw [if_neg (by decide)])

/-- One layer as the program's host operations compute it, from the aggregated features `a`, the clamped
    in-degrees `cm` and the features `h`. -/
def layer128 (a : H) (cm : C) (h : H) (Wl Wr : (⟨S128x128, .f32⟩ : BufTy).Contents (Elt Ideal)) (b : (⟨S128, .f32⟩ : BufTy).Contents (Elt Ideal)) : (⟨S50000x128, .f32⟩ : BufTy).Contents (Elt Ideal) :=
  addf (F := Ideal) (φ := .f32) (s := S50000x128)
    (addf (F := Ideal) (φ := .f32) (s := S50000x128) (dg128 (Host.divf (F := Ideal) (φ := .f32) (s := S50000x128) a (colB cm)) Wl) (rowB128 b))
    (dg128 h Wr)

theorem layer128_apply (a : H) (cm : C) (h : H) (Wl Wr : (⟨S128x128, .f32⟩ : BufTy).Contents (Elt Ideal)) (b : (⟨S128, .f32⟩ : BufTy).Contents (Elt Ideal)) (r : Fin 50000) (q : Fin 128) :
    layer128 a cm h Wl Wr b (ix2 r q)
      = ((∑ k : Fin 128, Ideal.div (a (ix2 r k)) (cm (ix1 r)) * Wl (ix2 k q)) + b (ix1 q)) + ∑ k : Fin 128, h (ix2 r k) * Wr (ix2 k q) := by
  unfold layer128
  rw [addf_apply, addf_apply, dg_apply128, dg_apply128, rowB128_apply]
  simp only [hostDivf_apply, colB_apply]

/-- Entry by entry it is the layer's second form, over any aggregate `A` of the features. -/
theorem layer128_eq (A : H → H) (cm : C) (h : H) (Wl Wr : (⟨S128x128, .f32⟩ : BufTy).Contents (Elt Ideal)) (b : (⟨S128, .f32⟩ : BufTy).Contents (Elt Ideal)) :
    layer128 (A h) cm h Wl Wr b = Cert.Sage.toArr (Cert.Sage.layerDiv A (fun r => cm (ix1 r)) h Wl Wr (fun q => b (ix1 q))) :=
  Cert.Sage.eq_toArr _ _ fun r q => layer128_apply (A h) cm h Wl Wr b r q

/-! ## A layer with 64 output columns -/

theorem lhs_row64 (i : S50000x64.Idx) (u : dot_S50000x128_S128x64_S50000x64_1_0_0_1_n_n.contr.Idx) : (dot_S50000x128_S128x64_S50000x64_1_0_0_1_n_n.lhsIdx i u 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem rhs_col64 (i : S50000x64.Idx) (u : dot_S50000x128_S128x64_S50000x64_1_0_0_1_n_n.contr.Idx) : (dot_S50000x128_S128x64_S50000x64_1_0_0_1_n_n.rhsIdx i u 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's matrix product. -/
def dg64 (l : H) (w : (⟨S128x64, .f32⟩ : BufTy).Contents (Elt Ideal)) : (⟨S50000x64, .f32⟩ : BufTy).Contents (Elt Ideal) := Host.dotGeneral (F := Ideal) (φ₁ := .f32) (φ₂ := .f32) dot_S50000x128_S128x64_S50000x64_1_0_0_1_n_n none l w

/-- At row `r` and column `q` it is the sum over the 128 contracted columns. -/
theorem dg_apply64 (l : H) (w : (⟨S128x64, .f32⟩ : BufTy).Contents (Elt Ideal)) (r : Fin 50000) (q : Fin 64) :
    dg64 l w (ix2 r q) = ∑ k : Fin 128, l (ix2 r k) * w (ix2 k q) := by
  unfold dg64
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r q) ((contrEquiv1 dot_S50000x128_S128x64_S50000x64_1_0_0_1_n_n 128 rfl rfl).symm k) = ix2 r k := funext fun a => Fin.ext (by
    match a with
    | ⟨0, _⟩ => exact lhs_row64 _ _
    | ⟨1, _⟩ => exact (dot_S50000x128_S128x64_S50000x64_1_0_0_1_n_n.lhsIdx_val_of_single rfl (ix2 r q) _).trans hk)
  have er : dot_S50000x128_S128x64_S50000x64_1_0_0_1_n_n.rhsIdx (ix2 r q) ((contrEquiv1 dot_S50000x128_S128x64_S50000x64_1_0_0_1_n_n 128 rfl rfl).symm k) = ix2 k q := funext fun a => Fin.ext (by
    match a with
    | ⟨0, _⟩ => exact (dot_S50000x128_S128x64_S50000x64_1_0_0_1_n_n.rhsIdx_val_of_single rfl (ix2 r q) _).trans hk
    | ⟨1, _⟩ => exact rhs_col64 _ _)
  rw [el, er]

/-- The bias spread down the rows. -/
def rowB64 (b : (⟨S64, .f32⟩ : BufTy).Contents (Elt Ideal)) : (⟨S50000x64, .f32⟩ : BufTy).Contents (Elt Ideal) :=
  broadcastInDim S50000x64 ![0, 1] bcast_S1x64_S50000x64_0_1 (broadcastInDim S1x64 ![1] bcast_S64_S1x64_1 b)

theorem rowB64_apply (b : (⟨S64, .f32⟩ : BufTy).Contents (Elt Ideal)) (r : Fin 50000) (q : Fin 64) :
    rowB64 b (ix2 r q) = b (ix1 q) := by
  unfold rowB64
  rw [broadcastInDim_apply _ bcast_S1x64_S50000x64_0_1 _ (ix2 r q) (ix2 0 q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])]
  exact broadcastInDim_apply _ bcast_S64_S1x64_1 b (ix2 0 q) (ix1 q) (fun a => match a with
    | ⟨0, _⟩ => by show q.val = if (64 : Nat) = 1 then 0 else q.val; rw [if_neg (by decide)])

/-- One layer as the program's host operations compute it, from the aggregated features `a`, the clamped
    in-degrees `cm` and the features `h`. -/
def layer64 (a : H) (cm : C) (h : H) (Wl Wr : (⟨S128x64, .f32⟩ : BufTy).Contents (Elt Ideal)) (b : (⟨S64, .f32⟩ : BufTy).Contents (Elt Ideal)) : (⟨S50000x64, .f32⟩ : BufTy).Contents (Elt Ideal) :=
  addf (F := Ideal) (φ := .f32) (s := S50000x64)
    (addf (F := Ideal) (φ := .f32) (s := S50000x64) (dg64 (Host.divf (F := Ideal) (φ := .f32) (s := S50000x128) a (colB cm)) Wl) (rowB64 b))
    (dg64 h Wr)

theorem layer64_apply (a : H) (cm : C) (h : H) (Wl Wr : (⟨S128x64, .f32⟩ : BufTy).Contents (Elt Ideal)) (b : (⟨S64, .f32⟩ : BufTy).Contents (Elt Ideal)) (r : Fin 50000) (q : Fin 64) :
    layer64 a cm h Wl Wr b (ix2 r q)
      = ((∑ k : Fin 128, Ideal.div (a (ix2 r k)) (cm (ix1 r)) * Wl (ix2 k q)) + b (ix1 q)) + ∑ k : Fin 128, h (ix2 r k) * Wr (ix2 k q) := by
  unfold layer64
  rw [addf_apply, addf_apply, dg_apply64, dg_apply64, rowB64_apply]
  simp only [hostDivf_apply, colB_apply]

/-- Entry by entry it is the layer's second form, over any aggregate `A` of the features. -/
theorem layer64_eq (A : H → H) (cm : C) (h : H) (Wl Wr : (⟨S128x64, .f32⟩ : BufTy).Contents (Elt Ideal)) (b : (⟨S64, .f32⟩ : BufTy).Contents (Elt Ideal)) :
    layer64 (A h) cm h Wl Wr b = Cert.Sage.toArr (Cert.Sage.layerDiv A (fun r => cm (ix1 r)) h Wl Wr (fun q => b (ix1 q))) :=
  Cert.Sage.eq_toArr _ _ fun r q => layer64_apply (A h) cm h Wl Wr b r q

/-! ## The network -/

/-- The rectifier on an array. -/
def relu128 (h : H) : H :=
  maximumf (F := Ideal) (φ := .f32) (s := S50000x128) h (broadcastInDim S50000x128 ![] bcast_S_S50000x128 (constant (F := Ideal) S_ .f32 0x00000000#32))

theorem relu128_toArr (f : Fin 50000 → Fin 128 → EReal) : relu128 (Cert.Sage.toArr f) = Cert.Sage.toArr (Cert.Sage.relu f) :=
  Cert.Sage.eq_toArr _ _ fun r q => rfl

/-- The three layers composed over an aggregate `A` and clamped in-degrees `cm`. -/
def net (A : H → H) (cm : C) (x0 : H) (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S128x64, .f32⟩ : BufTy).Contents (Elt Ideal)) (x10 : (⟨S64, .f32⟩ : BufTy).Contents (Elt Ideal)) : (⟨S50000x64, .f32⟩ : BufTy).Contents (Elt Ideal) :=
  layer64 (A (relu128 (layer128 (A (relu128 (layer128 (A x0) cm x0 x2 x3 x4))) cm (relu128 (layer128 (A x0) cm x0 x2 x3 x4)) x5 x6 x7))) cm
    (relu128 (layer128 (A (relu128 (layer128 (A x0) cm x0 x2 x3 x4))) cm (relu128 (layer128 (A x0) cm x0 x2 x3 x4)) x5 x6 x7)) x8 x9 x10

/-- The composed layers are the network in its second form. -/
theorem net_eq (A : H → H) (cm : C) (x0 : H) (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S128x64, .f32⟩ : BufTy).Contents (Elt Ideal)) (x10 : (⟨S64, .f32⟩ : BufTy).Contents (Elt Ideal)) :
    net A cm x0 x2 x3 x4 x5 x6 x7 x8 x9 x10
      = Cert.Sage.toArr (Cert.Sage.netDiv A (fun r => cm (ix1 r)) x0 x2 x3 (fun q => x4 (ix1 q)) x5 x6 (fun q => x7 (ix1 q)) x8 x9 (fun q => x10 (ix1 q))) := by
  unfold net Cert.Sage.netDiv
  rw [layer128_eq A, relu128_toArr, layer128_eq A, relu128_toArr, layer64_eq A]

/-- The program's result term is the three layers composed over its own aggregate and clamped in-degrees. -/
theorem val_eq (x0 : H) (x1 : E) (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S128x64, .f32⟩ : BufTy).Contents (Elt Ideal)) (x10 : (⟨S64, .f32⟩ : BufTy).Contents (Elt Ideal)) :
    Read.val_main_v80 (F := Ideal) x0 x1 x2 x3 x4 x5 x6 x7 x8 x9 x10 = net (agg x1) (cmax x1) x0 x2 x3 x4 x5 x6 x7 x8 x9 x10 := rfl

end Cert.ReferenceIdeal.RefValue

end
-- ==== Proof.lean ====
/- The two programs compute the same three-layer mean-aggregating graph convolution on the extended reals.

   Both gather every edge's source features, scatter-add them at the edge's destination, normalise by the clamped
   in-degree `max(cnt, 1)` and apply `mean · Wl + h · Wr + b`, the first two layers followed by the rectifier. They differ
   in that one multiplies by `1 / max(cnt, 1)` where the other divides, in the place of the bias in the three-term sum,
   and in that one forms the dense part 5000 rows at a time inside kernel launches (with a change of float format
   that is the identity on the extended reals) where the other uses whole-array matrix products. On the extended
   reals `a · (1 / c) = a / c` whenever `c ≠ 0` — and a clamped count is at least one —, and addition is commutative
   and associative, so no finiteness of the inputs is used. The gather and the scatter-add are the same operations on
   both sides and stay closed. The frames of the two kernel programs are the generated ones; the host program's frame
   is its generated run with the result dropped; the idealization's ledger is empty. -/
import proofs.«120423_j59734405152779_1_alg».proof.Defs
import proofs.«120423_j59734405152779_1_alg».proof.Proof.Gen.Kernel
import proofs.«120423_j59734405152779_1_alg».proof.Proof.Gen.Kernel.Skeleton
import proofs.«120423_j59734405152779_1_alg».proof.Proof.Gen.Kernel.Launch
import proofs.«120423_j59734405152779_1_alg».proof.Proof.Gen.Kernel.Points
import proofs.«120423_j59734405152779_1_alg».proof.Proof.Gen.Kernel.Frame
import proofs.«120423_j59734405152779_1_alg».proof.Proof.Gen.KernelIdeal
import proofs.«120423_j59734405152779_1_alg».proof.Proof.Gen.KernelIdeal.Skeleton
import proofs.«120423_j59734405152779_1_alg».proof.Proof.Gen.KernelIdeal.Launch
import proofs.«120423_j59734405152779_1_alg».proof.Proof.Gen.KernelIdeal.Points
import proofs.«120423_j59734405152779_1_alg».proof.Proof.Gen.KernelIdeal.Frame
import proofs.«120423_j59734405152779_1_alg».proof.Proof.Gen.ReferenceIdeal
import proofs.«120423_j59734405152779_1_alg».proof.Proof.Gen.Pre_finite_inputs
import proofs.«120423_j59734405152779_1_alg».proof.Proof.Gen.ReferenceIdeal.Run
import proofs.«120423_j59734405152779_1_alg».proof.Proof.Gen.ReferenceIdeal.Read
import proofs.«120423_j59734405152779_1_alg».proof.Proof.KernelValue
import proofs.«120423_j59734405152779_1_alg».proof.Proof.RefSpec
import Idealize.ShloMosaic.Adequacy
import Idealize.ShloMosaic.Init

noncomputable section

namespace Cert.Proof

open Idealize.ShloMosaic Idealize.SL.Sem Idealize.ShloMosaic.ValueIdx

/-- The two programs' aggregates are one function: the same gather and scatter-add over the same indices. -/
theorem agg_eq (e : Cert.ReferenceIdeal.RefValue.E) :
    Cert.ReferenceIdeal.RefValue.agg e = Cert.KernelIdeal.Host.agg e := rfl

/-- And so are their clamped in-degrees. -/
theorem cmax_eq (e : Cert.ReferenceIdeal.RefValue.E) : Cert.ReferenceIdeal.RefValue.cmax e = Cert.KernelIdeal.Host.cmax e := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network's value: the first in its
    "multiply by the reciprocal" form, the second in its "divide" form, equal because no clamped count is zero. -/
theorem algebraic : Cert.algebraic_KernelIdeal_ReferenceIdeal := by
  intro m ρ m' ρ' _ hagree
  refine ⟨fun c => Cert.KernelIdeal.NetValue.out2 m c, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v80_eq, a0, a1, a2, a3, a4, a5, a6, a7, a8, a9, a10, Cert.ReferenceIdeal.RefValue.val_eq, Cert.ReferenceIdeal.RefValue.net_eq]
  show _ = Cert.KernelIdeal.NetValue.out2 m c
  have hc : ∀ r, Cert.KernelIdeal.NetValue.cm (m ((c.tc : Thread Cert.KernelIdeal.nD Cert.KernelIdeal.τ).loc Cert.KernelIdeal.main_arg1)) r ≠ 0 :=
    fun r => Cert.KernelIdeal.Host.clamp_ne_zero (Cert.KernelIdeal.Host.cnt _) (ix1 r)
  rw [Cert.KernelIdeal.NetValue.out2_eq, Cert.Sage.netMul_eq_netDiv _ _ hc, agg_eq, cmax_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
